-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 61
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x64, .f32⟩
  | .hbm, ⟨60, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The tiled program's run with its two returned arrays named.

  The program is eleven segments: stretches of host operations and four tiled regions.  The buffer contents at each
  segment boundary form a fold from the launch memory: a host stretch applies its operations, a region replaces its
  arrays by what its write-backs leave and keeps every other buffer.  Every weakly fair execution terminates in a state
  whose unscoped buffers hold the last boundary's contents; read at the two returned buffers, that gives each result
  as the fold's value there, and read at the seven argument buffers it gives the launch contents back.
-/
import proofs.«130157_j10574209483123_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the second layer's output and the
    first layer's output at the last boundary's contents of their buffers, and the seven arguments as launched. -/
theorem run : θ_run defs (onTc (τ := τ) (main (F := F))) ⟨m, fun _ => 0, ρ⟩ (fun r => ∀ c : Dev nD,
      r.2.mem ((c.tc : Thread nD τ).loc main_v38) = W11 m ρ c (Proc.devRef .tc main_v38)
      ∧ r.2.mem ((c.tc : Thread nD τ).loc main_v25) = W11 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v38 (by decide)),
       h c _ (mem_uc main_v25 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.KRun

end
-- ==== Proof.Spec.lean ====
/-
  What one graph-convolution layer computes, entry by entry, on the extended reals.

  A layer takes node features, scales each node's row by that node's out-degree factor, projects the rows by a weight
  matrix, sums the projected rows of each node's in-neighbours, scales each node's sum by its in-degree factor and adds
  a bias row; the first layer then takes the maximum with zero.  The neighbour sum is a gather followed by a
  scatter-add and is the same operation in both programs; the two dense steps on either side of it are the functions
  below.

  * `proj x n W` at (p, q) is the sum over k of (x (p, k) * n (p, 0)) * W (k, q): row p of x scaled by the p-th entry
    of the column n, then multiplied by column q of W.
  * `scaleShift a n b` at (p, q) is a (p, q) * n (p, 0) + b (0, q): row p of a scaled by the p-th entry of the column
    n, plus the bias row b.
  * `scaleShiftRelu a n b` at (p, q) is the maximum of that and the number the all-zero 32-bit pattern denotes.
-/
import Idealize.ShloMosaic.PureOps.Ideal
import Idealize.ShloMosaic.Lib.ValueIdx

noncomputable section

open scoped BigOperators

namespace Cert.Gcn

open Idealize.ShloMosaic Idealize.ShloMosaic.ValueIdx

/-- Rows scaled by a column of factors, then projected: entry (p, q) is the sum over k of
    (x (p, k) * n (p, 0)) * W (k, q). -/
def proj {A K B : Nat} (x : FVec Ideal ⟨2, ![A, K]⟩ .f32) (n : FVec Ideal ⟨2, ![A, 1]⟩ .f32)
    (W : FVec Ideal ⟨2, ![K, B]⟩ .f32) : FVec Ideal ⟨2, ![A, B]⟩ .f32 :=
  fun i => ∑ k : Fin K, (x (ix2 (i 0) k) * n (ix2 (i 0) (0 : Fin 1))) * W (ix2 k (i 1))

/-- Rows scaled by a column of factors, plus a bias row: entry (p, q) is a (p, q) * n (p, 0) + b (0, q). -/
def scaleShift {A B : Nat} (a : FVec Ideal ⟨2, ![A, B]⟩ .f32) (n : FVec Ideal ⟨2, ![A, 1]⟩ .f32)
    (b : FVec Ideal ⟨2, ![1, B]⟩ .f32) : FVec Ideal ⟨2, ![A, B]⟩ .f32 :=
  fun i => a i * n (ix2 (i 0) (0 : Fin 1)) + b (ix2 (0 : Fin 1) (i 1))

/-- The same, floored at the number the all-zero 32-bit pattern denotes. -/
def scaleShiftRelu {A B : Nat} (a : FVec Ideal ⟨2, ![A, B]⟩ .f32) (n : FVec Ideal ⟨2, ![A, 1]⟩ .f32)
    (b : FVec Ideal ⟨2, ![1, B]⟩ .f32) : FVec Ideal ⟨2, ![A, B]⟩ .f32 :=
  fun i => max (scaleShift a n b i) (Ideal.ofBits .f32 0x00000000#32)

theorem proj_apply {A K B : Nat} (x : FVec Ideal ⟨2, ![A, K]⟩ .f32) (n : FVec Ideal ⟨2, ![A, 1]⟩ .f32)
    (W : FVec Ideal ⟨2, ![K, B]⟩ .f32) (p : Fin A) (q : Fin B) :
    proj x n W (ix2 p q) = ∑ k : Fin K, (x (ix2 p k) * n (ix2 p (0 : Fin 1))) * W (ix2 k q) := rfl

theorem scaleShift_apply {A B : Nat} (a : FVec Ideal ⟨2, ![A, B]⟩ .f32) (n : FVec Ideal ⟨2, ![A, 1]⟩ .f32)
    (b : FVec Ideal ⟨2, ![1, B]⟩ .f32) (p : Fin A) (q : Fin B) :
    scaleShift a n b (ix2 p q) = a (ix2 p q) * n (ix2 p (0 : Fin 1)) + b (ix2 (0 : Fin 1) q) := rfl

theorem scaleShiftRelu_apply {A B : Nat} (a : FVec Ideal ⟨2, ![A, B]⟩ .f32) (n : FVec Ideal ⟨2, ![A, 1]⟩ .f32)
    (b : FVec Ideal ⟨2, ![1, B]⟩ .f32) (p : Fin A) (q : Fin B) :
    scaleShiftRelu a n b (ix2 p q)
      = max (a (ix2 p q) * n (ix2 p (0 : Fin 1)) + b (ix2 (0 : Fin 1) q)) (Ideal.ofBits .f32 0x00000000#32) := rfl

end Cert.Gcn

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.RegionProj.lean ====
/-
  What each of the two projection regions leaves in its output array, as one function of the arrays the region finds.

  A projection region walks twenty blocks of five thousand rows.  At block t it reads rows 5000 t … 5000 t + 4999 of
  the feature matrix and of the one-column matrix of row factors, and the whole weight matrix, and writes rows
  5000 t … 5000 t + 4999 of its output: each feature row scaled by its factor, then multiplied by the weight matrix.
  Output entry (p, q) depends only on row p of the features and of the factors, so the twenty blocks written back are
  the twenty row bands of `Cert.Gcn.proj` of the whole operands; the bands tile the output, which therefore ends
  holding that function.
-/
import proofs.«130157_j10574209483123_1_alg».proof.Proof.Gen.KernelIdeal.Frame
import proofs.«130157_j10574209483123_1_alg».proof.Proof.Spec
import proofs.«130157_j10574209483123_1_alg».proof.Proof.LibPlainDot
import proofs.«130157_j10574209483123_1_alg».proof.Proof.LibRank2Layout
import Idealize.ShloMosaic.Lib.Pipeline.Value
import Idealize.ShloMosaic.Lib.ValueIdx
import Idealize.ShloMosaic.PureOps.Ideal.Laws

set_option maxRecDepth 16384

noncomputable section

namespace Cert.KernelIdeal.RegionProj

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## One block's arithmetic, entry by entry -/

/-- Entry (p, q) of the first projection's block: the sum over k of (x0 (p, k) * x1 (p, 0)) * x2 (k, q). -/
theorem pay0_apply (x0 : Vec Ideal S5000x128 .f32) (x1 : Vec Ideal S5000x1 .f32) (x2 : Vec Ideal S128x64 .f32)
    (p : Fin 5000) (q : Fin 64) :
    k0_pay1 (F := Ideal) x0 x1 x2 (ix2 p q)
      = ∑ k : Fin 128, (x0 (ix2 p k) * x1 (ix2 p (0 : Fin 1))) * x2 (ix2 k q) := by
  unfold k0_pay1
  refine (Cert.Bridge.matmul_zero_plain dot_S5000x128_S128x64_S5000x64_1_0_0_1_n_n rfl rfl rfl rfl rfl rfl none _ _ p q).trans ?_
  refine Finset.sum_congr rfl fun k _ => ?_
  rw [truncf_apply, truncf_apply, mulf_apply, shapeCast_self, Idealize.ShloMosaic.Rank2.bcastCol_apply]

/-- Entry (p, q) of the second projection's block. -/
theorem pay2_apply (x0 : Vec Ideal S5000x64 .f32) (x1 : Vec Ideal S5000x1 .f32) (x2 : Vec Ideal S64x64 .f32)
    (p : Fin 5000) (q : Fin 64) :
    k2_pay1 (F := Ideal) x0 x1 x2 (ix2 p q)
      = ∑ k : Fin 64, (x0 (ix2 p k) * x1 (ix2 p (0 : Fin 1))) * x2 (ix2 k q) := by
  unfold k2_pay1
  refine (Cert.Bridge.matmul_zero_plain dot_S5000x64_S64x64_S5000x64_1_0_0_1_n_n rfl rfl rfl rfl rfl rfl none _ _ p q).trans ?_
  refine Finset.sum_congr rfl fun k _ => ?_
  rw [truncf_apply, truncf_apply, mulf_apply, shapeCast_self, shapeCast_self, Idealize.ShloMosaic.Rank2.bcastCol_apply]

/-! ## Which block each point reads and writes -/

/-- The block indices of region 0's windows, decided over the grid: the features', the factors' and the output's
    row-block index is the point's number, every column-block index is 0, and the weights' one block is block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The same for region 2's windows. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The zero offset of a whole-buffer rectangle, as a constant function. -/
theorem offZero : (![0, 0] : Fin 2 → Nat) = fun _ => 0 :=
  funext fun a => match a with | ⟨0, _⟩ => rfl | ⟨1, _⟩ => rfl

/-! ## Region 0: blocks as row bands -/

/-- Entry (p, k) of block t of the features is entry (5000 t + p, k) of the feature matrix. -/
theorem feat0_apply (c : Dev nD) (t : Fin cfg0.N) (p : Fin 5000) (k : Fin 128) (h : 5000 * t.val + p.val < 100000) :
    (iblk0 V c 0 t : Vec Ideal S5000x128 .f32) (ix2 p k)
      = (V c main_arg0 : S100000x128.Idx → Elt Ideal .f32) (ix2 (⟨5000 * t.val + p.val, h⟩ : Fin 100000) k) := by
  obtain ⟨e0, e1, -⟩ := blockIndex0 t
  show V c main_arg0 (((cfg0.win 0).blk t).view.emb (ix2 p k)) = V c main_arg0 (ix2 _ k)
  refine congrArg _ ?_
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- Entry (p, 0) of block t of the row factors is entry (5000 t + p, 0) of the factor column. -/
theorem fac0_apply (c : Dev nD) (t : Fin cfg0.N) (p : Fin 5000) (z : Fin 1) (h : 5000 * t.val + p.val < 100000) :
    (iblk0 V c 1 t : Vec Ideal S5000x1 .f32) (ix2 p z)
      = (V c main_v10 : S100000x1.Idx → Elt Ideal .f32) (ix2 (⟨5000 * t.val + p.val, h⟩ : Fin 100000) z) := by
  obtain ⟨-, -, e2, e3, -⟩ := blockIndex0 t
  show V c main_v10 (((cfg0.win 1).blk t).view.emb (ix2 p z)) = V c main_v10 (ix2 _ z)
  refine congrArg _ ?_
  funext a; apply Fin.ext
  match a with
  | ⟨0, _⟩ => show win0_1.index t (0 : Fin 2) * 5000 + 1 * p.val = 5000 * t.val + p.val; omega
  | ⟨1, _⟩ => show win0_1.index t (1 : Fin 2) * 1 + 1 * z.val = z.val; omega

/-- Every block of the weights is the whole weight matrix. -/
theorem wt0_apply (c : Dev nD) (t : Fin cfg0.N) (k : Fin 128) (q : Fin 64) :
    (iblk0 V c 2 t : Vec Ideal S128x64 .f32) (ix2 k q)
      = (V c main_arg3 : S128x64.Idx → Elt Ideal .f32) (ix2 k q) := by
  obtain ⟨-, -, -, -, e4, e5, -⟩ := blockIndex0 t
  show V c main_arg3 (((cfg0.win 2).blk t).view.emb (ix2 k q)) = V c main_arg3 (ix2 k q)
  refine congrArg _ ?_
  funext a; apply Fin.ext
  match a with
  | ⟨0, _⟩ => show win0_2.index t (0 : Fin 2) * 128 + 1 * k.val = k.val; omega
  | ⟨1, _⟩ => show win0_2.index t (1 : Fin 2) * 64 + 1 * q.val = q.val; omega

/-- Place (p, q) of output block t is place (5000 t + p, q) of the output array. -/
theorem outPlace0 (t : Fin cfg0.N) (p : Fin 5000) (q : Fin 64) (h : 5000 * t.val + p.val < 100000) :
    ((cfg0.win 3).blk t).view.emb (ix2 p q) = (ix2 (⟨5000 * t.val + p.val, h⟩ : Fin 100000) q : S100000x64.Idx) := by
  obtain ⟨-, -, -, -, -, -, e6, e7⟩ := blockIndex0 t
  funext a; apply Fin.ext
  match a with
  | ⟨0, _⟩ => show win0_3.index t (0 : Fin 2) * 5000 + 1 * p.val = 5000 * t.val + p.val; omega
  | ⟨1, _⟩ => show win0_3.index t (1 : Fin 2) * 64 + 1 * q.val = q.val; omega

/-- What point t writes back is band t of the projection of the whole operands. -/
theorem flushed0_eq (c : Dev nD) (t : Fin cfg0.N) :
    (dat0 (F := Ideal) V c).flushed 3 t
      = ((cfg0.win 3).blk t).view.read (Elt Ideal) (Cert.Gcn.proj (V c main_arg0) (V c main_v10) (V c main_arg3)) := by
  show (cfg0.win 3).cut (grid0.coords t) ((dat0 V c).after 3 t) = _
  rw [after0_3]
  unfold out0_3
  rw [View.canon_unit_zero offZero]
  simp only [View.ld_unit_zero (S := S5000x128) offZero, View.ld_unit_zero (S := S5000x1) offZero,
    View.ld_unit_zero (S := S128x64) offZero]
  funext j
  obtain ⟨p, q, rfl⟩ : ∃ (p : Fin 5000) (q : Fin 64), j = ix2 p q := ⟨j 0, j 1, eq_ix2 j⟩
  have ht : t.val < 20 := t.isLt
  have hp : 5000 * t.val + p.val < 100000 := by have := p.isLt; omega
  show k0_pay1 (F := Ideal) (iblk0 V c 0 t) (iblk0 V c 1 t) (iblk0 V c 2 t) (ix2 p q)
    = Cert.Gcn.proj (V c main_arg0) (V c main_v10) (V c main_arg3) (((cfg0.win 3).blk t).view.emb (ix2 p q))
  rw [pay0_apply, outPlace0 t p q hp, Cert.Gcn.proj_apply]
  refine Finset.sum_congr rfl fun k _ => ?_
  rw [feat0_apply V c t p k hp, fac0_apply V c t p 0 hp, wt0_apply V c t k q]

/-- An index of the output array is in point t's block iff each coordinate is in the block's range on its axis. -/
theorem mem_band0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v13).slice (win0_3.rect t)).set ↔ _
  rw [View.set_slice_whole, Rect.mem_set_unit]
  exact Iff.rfl

/-- Row r of the output array is in the band of point r / 5000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 5000 < 20 := by omega
  obtain ⟨-, -, -, -, -, -, e6, e7⟩ := blockIndex0 (⟨(i 0).val / 5000, hlt⟩ : Fin cfg0.N)
  have e6' : win0_3.index (⟨(i 0).val / 5000, hlt⟩ : Fin cfg0.N) (0 : Fin 2) = (i 0).val / 5000 := e6
  refine ⟨⟨(i 0).val / 5000, hlt⟩, flush0_3 _, ?_⟩
  rw [mem_band0]
  intro a
  match a with
  | ⟨0, _⟩ =>
    show win0_3.index (⟨(i 0).val / 5000, hlt⟩ : Fin cfg0.N) (0 : Fin 2) * 5000 ≤ (i 0).val
      ∧ (i 0).val < win0_3.index (⟨(i 0).val / 5000, hlt⟩ : Fin cfg0.N) (0 : Fin 2) * 5000 + 5000
    omega
  | ⟨1, _⟩ =>
    show win0_3.index (⟨(i 0).val / 5000, hlt⟩ : Fin cfg0.N) (1 : Fin 2) * 64 ≤ (i 1).val
      ∧ (i 1).val < win0_3.index (⟨(i 0).val / 5000, hlt⟩ : Fin cfg0.N) (1 : Fin 2) * 64 + 64
    omega

/-- Region 0 (the first layer's projection): its output array ends at the projection of the scaled features. -/
theorem final0 (c : Dev nD) :
    (dat0 (F := Ideal) V c).arrAt 3 cfg0.N = Cert.Gcn.proj (V c main_arg0) (V c main_v10) (V c main_arg3) :=
  (dat0 (F := Ideal) V c).arrAt_eq_of_cover 3 (Cert.Gcn.proj (V c main_arg0) (V c main_v10) (V c main_arg3))
    (fun t _ => flushed0_eq V c t) cover0

/-! ## Region 2: blocks as row bands -/

/-- Entry (p, k) of block t of the hidden features is entry (5000 t + p, k) of the hidden feature matrix. -/
theorem feat2_apply (c : Dev nD) (t : Fin cfg2.N) (p : Fin 5000) (k : Fin 64) (h : 5000 * t.val + p.val < 100000) :
    (iblk2 V c 0 t : Vec Ideal S5000x64 .f32) (ix2 p k)
      = (V c main_v25 : S100000x64.Idx → Elt Ideal .f32) (ix2 (⟨5000 * t.val + p.val, h⟩ : Fin 100000) k) := by
  obtain ⟨e0, e1, -⟩ := blockIndex2 t
  show V c main_v25 (((cfg2.win 0).blk t).view.emb (ix2 p k)) = V c main_v25 (ix2 _ k)
  refine congrArg _ ?_
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

/-- Entry (p, 0) of block t of the row factors is entry (5000 t + p, 0) of the factor column. -/
theorem fac2_apply (c : Dev nD) (t : Fin cfg2.N) (p : Fin 5000) (z : Fin 1) (h : 5000 * t.val + p.val < 100000) :
    (iblk2 V c 1 t : Vec Ideal S5000x1 .f32) (ix2 p z)
      = (V c main_v10 : S100000x1.Idx → Elt Ideal .f32) (ix2 (⟨5000 * t.val + p.val, h⟩ : Fin 100000) z) := by
  obtain ⟨-, -, e2, e3, -⟩ := blockIndex2 t
  show V c main_v10 (((cfg2.win 1).blk t).view.emb (ix2 p z)) = V c main_v10 (ix2 _ z)
  refine congrArg _ ?_
  funext a; apply Fin.ext
  match a with
  | ⟨0, _⟩ => show win2_1.index t (0 : Fin 2) * 5000 + 1 * p.val = 5000 * t.val + p.val; omega
  | ⟨1, _⟩ => show win2_1.index t (1 : Fin 2) * 1 + 1 * z.val = z.val; omega

/-- Every block of the weights is the whole weight matrix. -/
theorem wt2_apply (c : Dev nD) (t : Fin cfg2.N) (k : Fin 64) (q : Fin 64) :
    (iblk2 V c 2 t : Vec Ideal S64x64 .f32) (ix2 k q)
      = (V c main_arg5 : S64x64.Idx → Elt Ideal .f32) (ix2 k q) := by
  obtain ⟨-, -, -, -, e4, e5, -⟩ := blockIndex2 t
  show V c main_arg5 (((cfg2.win 2).blk t).view.emb (ix2 k q)) = V c main_arg5 (ix2 k q)
  refine congrArg _ ?_
  funext a; apply Fin.ext
  match a with
  | ⟨0, _⟩ => show win2_2.index t (0 : Fin 2) * 64 + 1 * k.val = k.val; omega
  | ⟨1, _⟩ => show win2_2.index t (1 : Fin 2) * 64 + 1 * q.val = q.val; omega

/-- Place (p, q) of output block t is place (5000 t + p, q) of the output array. -/
theorem outPlace2 (t : Fin cfg2.N) (p : Fin 5000) (q : Fin 64) (h : 5000 * t.val + p.val < 100000) :
    ((cfg2.win 3).blk t).view.emb (ix2 p q) = (ix2 (⟨5000 * t.val + p.val, h⟩ : Fin 100000) q : S100000x64.Idx) := by
  obtain ⟨-, -, -, -, -, -, e6, e7⟩ := blockIndex2 t
  funext a; apply Fin.ext
  match a with
  | ⟨0, _⟩ => show win2_3.index t (0 : Fin 2) * 5000 + 1 * p.val = 5000 * t.val + p.val; omega
  | ⟨1, _⟩ => show win2_3.index t (1 : Fin 2) * 64 + 1 * q.val = q.val; omega

/-- What point t writes back is band t of the projection of the whole operands. -/
theorem flushed2_eq (c : Dev nD) (t : Fin cfg2.N) :
    (dat2 (F := Ideal) V c).flushed 3 t
      = ((cfg2.win 3).blk t).view.read (Elt Ideal) (Cert.Gcn.proj (V c main_v25) (V c main_v10) (V c main_arg5)) := by
  show (cfg2.win 3).cut (grid2.coords t) ((dat2 V c).after 3 t) = _
  rw [after2_3]
  unfold out2_3
  rw [View.canon_unit_zero offZero]
  simp only [View.ld_unit_zero (S := S5000x64) offZero, View.ld_unit_zero (S := S5000x1) offZero,
    View.ld_unit_zero (S := S64x64) offZero]
  funext j
  obtain ⟨p, q, rfl⟩ : ∃ (p : Fin 5000) (q : Fin 64), j = ix2 p q := ⟨j 0, j 1, eq_ix2 j⟩
  have ht : t.val < 20 := t.isLt
  have hp : 5000 * t.val + p.val < 100000 := by have := p.isLt; omega
  show k2_pay1 (F := Ideal) (iblk2 V c 0 t) (iblk2 V c 1 t) (iblk2 V c 2 t) (ix2 p q)
    = Cert.Gcn.proj (V c main_v25) (V c main_v10) (V c main_arg5) (((cfg2.win 3).blk t).view.emb (ix2 p q))
  rw [pay2_apply, outPlace2 t p q hp, Cert.Gcn.proj_apply]
  refine Finset.sum_congr rfl fun k _ => ?_
  rw [feat2_apply V c t p k hp, fac2_apply V c t p 0 hp, wt2_apply V c t k q]

/-- An index of the output array is in point t's block iff each coordinate is in the block's range on its axis. -/
theorem mem_band2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v26).slice (win2_3.rect t)).set ↔ _
  rw [View.set_slice_whole, Rect.mem_set_unit]
  exact Iff.rfl

/-- Row r of the output array is in the band of point r / 5000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 5000 < 20 := by omega
  obtain ⟨-, -, -, -, -, -, e6, e7⟩ := blockIndex2 (⟨(i 0).val / 5000, hlt⟩ : Fin cfg2.N)
  have e6' : win2_3.index (⟨(i 0).val / 5000, hlt⟩ : Fin cfg2.N) (0 : Fin 2) = (i 0).val / 5000 := e6
  refine ⟨⟨(i 0).val / 5000, hlt⟩, flush2_3 _, ?_⟩
  rw [mem_band2]
  intro a
  match a with
  | ⟨0, _⟩ =>
    show win2_3.index (⟨(i 0).val / 5000, hlt⟩ : Fin cfg2.N) (0 : Fin 2) * 5000 ≤ (i 0).val
      ∧ (i 0).val < win2_3.index (⟨(i 0).val / 5000, hlt⟩ : Fin cfg2.N) (0 : Fin 2) * 5000 + 5000
    omega
  | ⟨1, _⟩ =>
    show win2_3.index (⟨(i 0).val / 5000, hlt⟩ : Fin cfg2.N) (1 : Fin 2) * 64 ≤ (i 1).val
      ∧ (i 1).val < win2_3.index (⟨(i 0).val / 5000, hlt⟩ : Fin cfg2.N) (1 : Fin 2) * 64 + 64
    omega

/-- Region 2 (the second layer's projection). -/
theorem final2 (c : Dev nD) :
    (dat2 (F := Ideal) V c).arrAt 3 cfg2.N = Cert.Gcn.proj (V c main_v25) (V c main_v10) (V c main_arg5) :=
  (dat2 (F := Ideal) V c).arrAt_eq_of_cover 3 (Cert.Gcn.proj (V c main_v25) (V c main_v10) (V c main_arg5))
    (fun t _ => flushed2_eq V c t) cover2

end Cert.KernelIdeal.RegionProj

end
-- ==== Proof.RegionPost.lean ====
/-
  What each of the two regions after a neighbour sum leaves in its output array, as one function of the arrays the
  region finds.

  Such a region walks twenty blocks of five thousand rows.  At block t it reads rows 5000 t … 5000 t + 4999 of the
  summed matrix and of the one-column matrix of row factors, and the whole one-row bias, and writes rows
  5000 t … 5000 t + 4999 of its output: each row scaled by its factor, plus the bias row — and, in the first layer,
  floored at zero.  Output entry (p, q) depends only on row p of the first two operands, so the twenty blocks written
  back are the twenty row bands of `Cert.Gcn.scaleShiftRelu` (first layer) or `Cert.Gcn.scaleShift` (second layer)
  of the whole operands; the bands tile the output, which therefore ends holding that function.
-/
import proofs.«130157_j10574209483123_1_alg».proof.Proof.Gen.KernelIdeal.Frame
import proofs.«130157_j10574209483123_1_alg».proof.Proof.Spec
import proofs.«130157_j10574209483123_1_alg».proof.Proof.LibRank2Layout
import Idealize.ShloMosaic.Lib.Pipeline.Value
import Idealize.ShloMosaic.Lib.ValueIdx
import Idealize.ShloMosaic.PureOps.Ideal.Laws

set_option maxRecDepth 16384

noncomputable section

namespace Cert.KernelIdeal.RegionPost

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The arithmetic of one block at an entry -/

/-- Entry (p, q) of the second-layer block: row p of the first block scaled by the p-th factor, plus the bias row. -/
theorem pay3_apply (x0 : Vec Ideal S5000x64 .f32) (x1 : Vec Ideal S5000x1 .f32) (x2 : Vec Ideal S1x64 .f32)
    (p : Fin 5000) (q : Fin 64) :
    k3_pay1 x0 x1 x2 (ix2 p q) = x0 (ix2 p q) * x1 (ix2 p (0 : Fin 1)) + x2 (ix2 (0 : Fin 1) q) := by
  unfold k3_pay1
  simp only [shapeCast_self]
  show x0 (ix2 p q) * broadcastTo S5000x64 x1 _ (ix2 p q) + broadcastTo S5000x64 x2 _ (ix2 p q) = _
  rw [Rank2.bcastCol_apply, Rank2.bcastRow_apply]

/-- Entry (p, q) of the first-layer block: the same, floored at the number the all-zero pattern denotes. -/
theorem pay1_apply (x0 : Vec Ideal S5000x64 .f32) (x1 : Vec Ideal S5000x1 .f32) (x2 : Vec Ideal S1x64 .f32)
    (p : Fin 5000) (q : Fin 64) :
    k1_pay1 x0 x1 x2 (ix2 p q)
      = max (x0 (ix2 p q) * x1 (ix2 p (0 : Fin 1)) + x2 (ix2 (0 : Fin 1) q)) (Ideal.ofBits .f32 0x00000000#32) := by
  unfold k1_pay1
  simp only [shapeCast_self]
  show max (x0 (ix2 p q) * broadcastTo S5000x64 x1 _ (ix2 p q) + broadcastTo S5000x64 x2 _ (ix2 p q)) _ = _
  rw [Rank2.bcastCol_apply, Rank2.bcastRow_apply]
  rfl

/-! ## Where each block sits -/

theorem origin_eq : (![0, 0] : Fin 2 → Nat) = fun _ => 0 := funext fun a => by fin_cases a <;> rfl

/-- The block indices of region 1, decided over its twenty points: the row-block index of the two row-banded operands
    and of the output is the point's number, every column-block index is zero, and the bias row's block is (0, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The same for region 3. -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-! ## Region 1: what a block reads, what it writes back, and the array at the end -/

/-- Row p of the t-th band of five thousand rows is a row of the hundred thousand. -/
theorem band_lt1 (t : Fin cfg1.N) (p : Fin 5000) : 5000 * t.val + p.val < 100000 := by
  have ht : t.val < 20 := t.isLt
  have hp := p.isLt
  omega

/-- Entry (p, k) of point t's block of the summed matrix is entry (5000 t + p, k) of the matrix. -/
theorem blk1_0_apply (c : Dev nD) (t : Fin cfg1.N) (p : Fin 5000) (k : Fin 64) :
    iblk1 (F := Ideal) V c 0 t (ix2 p k) = V c main_v23 (ix2 (⟨5000 * t.val + p.val, band_lt1 t p⟩ : Fin 100000) k) := by
  obtain ⟨e0, e1, -⟩ := blockIdx1 t
  show V c main_v23 (((cfg1.win 0).blk t).view.emb (ix2 p k)) = V c main_v23 (ix2 (⟨5000 * t.val + p.val, band_lt1 t p⟩ : Fin 100000) k)
  refine congrArg _ ?_
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

/-- Entry (p, 0) of point t's block of the column of row factors is entry (5000 t + p, 0) of the column. -/
theorem blk1_1_apply (c : Dev nD) (t : Fin cfg1.N) (p : Fin 5000) :
    iblk1 (F := Ideal) V c 1 t (ix2 p (0 : Fin 1)) = V c main_v12 (ix2 (⟨5000 * t.val + p.val, band_lt1 t p⟩ : Fin 100000) (0 : Fin 1)) := by
  obtain ⟨-, -, e0, e1, -⟩ := blockIdx1 t
  show V c main_v12 (((cfg1.win 1).blk t).view.emb (ix2 p (0 : Fin 1))) = V c main_v12 (ix2 (⟨5000 * t.val + p.val, band_lt1 t p⟩ : Fin 100000) (0 : Fin 1))
  refine congrArg _ ?_
  funext a; apply Fin.ext
  match a with
  | ⟨0, _⟩ => show win1_1.index t (0 : Fin 2) * 5000 + 1 * p.val = 5000 * t.val + p.val; omega
  | ⟨1, _⟩ => show win1_1.index t (1 : Fin 2) * 1 + 1 * 0 = 0; omega

/-- Point t's block of the bias row is the whole row. -/
theorem blk1_2_apply (c : Dev nD) (t : Fin cfg1.N) (q : Fin 64) :
    iblk1 (F := Ideal) V c 2 t (ix2 (0 : Fin 1) q) = V c main_v24 (ix2 (0 : Fin 1) q) := by
  obtain ⟨-, -, -, -, e0, e1, -⟩ := blockIdx1 t
  show V c main_v24 (((cfg1.win 2).blk t).view.emb (ix2 (0 : Fin 1) q)) = V c main_v24 (ix2 (0 : Fin 1) q)
  refine congrArg _ ?_
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- Entry (p, q) of point t's output block sits at entry (5000 t + p, q) of the output array. -/
theorem blk1_3_emb (t : Fin cfg1.N) (p : Fin 5000) (q : Fin 64) :
    ((cfg1.win 3).blk t).view.emb (ix2 p q) = ix2 (⟨5000 * t.val + p.val, band_lt1 t p⟩ : Fin 100000) q := by
  obtain ⟨-, -, -, -, -, -, e0, e1⟩ := blockIdx1 t
  funext a; apply Fin.ext
  match a with
  | ⟨0, _⟩ => show win1_3.index t (0 : Fin 2) * 5000 + 1 * p.val = 5000 * t.val + p.val; omega
  | ⟨1, _⟩ => show win1_3.index t (1 : Fin 2) * 64 + 1 * q.val = q.val; omega

/-- What point t writes back is the t-th row band of the layer's function of the whole operands. -/
theorem flushed1_eq (c : Dev nD) (t : Fin cfg1.N) :
    (dat1 (F := Ideal) V c).flushed 3 t
      = ((cfg1.win 3).blk t).view.read (Elt Ideal) (Cert.Gcn.scaleShiftRelu (V c main_v23) (V c main_v12) (V c main_v24)) := by
  show (cfg1.win 3).cut (grid1.coords t) ((dat1 (F := Ideal) V c).after 3 t) = _
  rw [after1_3]
  unfold out1_3
  rw [View.canon_unit_zero origin_eq]
  simp only [View.ld_unit_zero (S := S5000x64) origin_eq, View.ld_unit_zero (S := S5000x1) origin_eq,
    View.ld_unit_zero (S := S1x64) origin_eq]
  funext j
  obtain ⟨p, q, rfl⟩ : ∃ (p : Fin 5000) (q : Fin 64), j = ix2 p q := ⟨j 0, j 1, eq_ix2 j⟩
  show k1_pay1 (iblk1 (F := Ideal) V c 0 t) (iblk1 (F := Ideal) V c 1 t) (iblk1 (F := Ideal) V c 2 t) (ix2 p q)
    = Cert.Gcn.scaleShiftRelu (V c main_v23) (V c main_v12) (V c main_v24) (((cfg1.win 3).blk t).view.emb (ix2 p q))
  rw [pay1_apply, blk1_0_apply, blk1_1_apply, blk1_2_apply, blk1_3_emb, Cert.Gcn.scaleShiftRelu_apply]

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v25).slice (win1_3.rect t)).set ↔ _
  rw [View.set_slice_whole, Rect.mem_set_unit]
  exact Iff.rfl

/-- Every entry of the output array is written back by some point: row r by point r / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by show (i 0).val / 5000 < 20; omega⟩, rfl⟩
  obtain ⟨-, -, -, -, -, -, e0, e1⟩ := blockIdx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- Region 1 (after the first neighbour sum): scaled, shifted by the bias row, floored at zero. -/
theorem final1 (c : Dev nD) :
    (dat1 (F := Ideal) V c).arrAt 3 cfg1.N = Cert.Gcn.scaleShiftRelu (V c main_v23) (V c main_v12) (V c main_v24) := by
  exact (dat1 (F := Ideal) V c).arrAt_eq_of_cover 3 (Cert.Gcn.scaleShiftRelu (V c main_v23) (V c main_v12) (V c main_v24))
    (fun t _ => flushed1_eq V c t) cover1

/-! ## Region 3: what a block reads, what it writes back, and the array at the end -/

/-- Row p of the t-th band of five thousand rows is a row of the hundred thousand. -/
theorem band_lt3 (t : Fin cfg3.N) (p : Fin 5000) : 5000 * t.val + p.val < 100000 := by
  have ht : t.val < 20 := t.isLt
  have hp := p.isLt
  omega

/-- Entry (p, k) of point t's block of the summed matrix is entry (5000 t + p, k) of the matrix. -/
theorem blk3_0_apply (c : Dev nD) (t : Fin cfg3.N) (p : Fin 5000) (k : Fin 64) :
    iblk3 (F := Ideal) V c 0 t (ix2 p k) = V c main_v36 (ix2 (⟨5000 * t.val + p.val, band_lt3 t p⟩ : Fin 100000) k) := by
  obtain ⟨e0, e1, -⟩ := blockIdx3 t
  show V c main_v36 (((cfg3.win 0).blk t).view.emb (ix2 p k)) = V c main_v36 (ix2 (⟨5000 * t.val + p.val, band_lt3 t p⟩ : Fin 100000) k)
  refine congrArg _ ?_
  funext a; apply Fin.ext
  match a with
  | ⟨0, _⟩ => show win3_0.index t (0 : Fin 2) * 5000 + 1 * p.val = 5000 * t.val + p.val; omega
  | ⟨1, _⟩ => show win3_0.index t (1 : Fin 2) * 64 + 1 * k.val = k.val; omega

/-- Entry (p, 0) of point t's block of the column of row factors is entry (5000 t + p, 0) of the column. -/
theorem blk3_1_apply (c : Dev nD) (t : Fin cfg3.N) (p : Fin 5000) :
    iblk3 (F := Ideal) V c 1 t (ix2 p (0 : Fin 1)) = V c main_v12 (ix2 (⟨5000 * t.val + p.val, band_lt3 t p⟩ : Fin 100000) (0 : Fin 1)) := by
  obtain ⟨-, -, e0, e1, -⟩ := blockIdx3 t
  show V c main_v12 (((cfg3.win 1).blk t).view.emb (ix2 p (0 : Fin 1))) = V c main_v12 (ix2 (⟨5000 * t.val + p.val, band_lt3 t p⟩ : Fin 100000) (0 : Fin 1))
  refine congrArg _ ?_
  funext a; apply Fin.ext
  match a with
  | ⟨0, _⟩ => show win3_1.index t (0 : Fin 2) * 5000 + 1 * p.val = 5000 * t.val + p.val; omega
  | ⟨1, _⟩ => show win3_1.index t (1 : Fin 2) * 1 + 1 * 0 = 0; omega

/-- Point t's block of the bias row is the whole row. -/
theorem blk3_2_apply (c : Dev nD) (t : Fin cfg3.N) (q : Fin 64) :
    iblk3 (F := Ideal) V c 2 t (ix2 (0 : Fin 1) q) = V c main_v37 (ix2 (0 : Fin 1) q) := by
  obtain ⟨-, -, -, -, e0, e1, -⟩ := blockIdx3 t
  show V c main_v37 (((cfg3.win 2).blk t).view.emb (ix2 (0 : Fin 1) q)) = V c main_v37 (ix2 (0 : Fin 1) q)
  refine congrArg _ ?_
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-- Entry (p, q) of point t's output block sits at entry (5000 t + p, q) of the output array. -/
theorem blk3_3_emb (t : Fin cfg3.N) (p : Fin 5000) (q : Fin 64) :
    ((cfg3.win 3).blk t).view.emb (ix2 p q) = ix2 (⟨5000 * t.val + p.val, band_lt3 t p⟩ : Fin 100000) q := by
  obtain ⟨-, -, -, -, -, -, e0, e1⟩ := blockIdx3 t
  funext a; apply Fin.ext
  match a with
  | ⟨0, _⟩ => show win3_3.index t (0 : Fin 2) * 5000 + 1 * p.val = 5000 * t.val + p.val; omega
  | ⟨1, _⟩ => show win3_3.index t (1 : Fin 2) * 64 + 1 * q.val = q.val; omega

/-- What point t writes back is the t-th row band of the layer's function of the whole operands. -/
theorem flushed3_eq (c : Dev nD) (t : Fin cfg3.N) :
    (dat3 (F := Ideal) V c).flushed 3 t
      = ((cfg3.win 3).blk t).view.read (Elt Ideal) (Cert.Gcn.scaleShift (V c main_v36) (V c main_v12) (V c main_v37)) := by
  show (cfg3.win 3).cut (grid3.coords t) ((dat3 (F := Ideal) V c).after 3 t) = _
  rw [after3_3]
  unfold out3_3
  rw [View.canon_unit_zero origin_eq]
  simp only [View.ld_unit_zero (S := S5000x64) origin_eq, View.ld_unit_zero (S := S5000x1) origin_eq,
    View.ld_unit_zero (S := S1x64) origin_eq]
  funext j
  obtain ⟨p, q, rfl⟩ : ∃ (p : Fin 5000) (q : Fin 64), j = ix2 p q := ⟨j 0, j 1, eq_ix2 j⟩
  show k3_pay1 (iblk3 (F := Ideal) V c 0 t) (iblk3 (F := Ideal) V c 1 t) (iblk3 (F := Ideal) V c 2 t) (ix2 p q)
    = Cert.Gcn.scaleShift (V c main_v36) (V c main_v12) (V c main_v37) (((cfg3.win 3).blk t).view.emb (ix2 p q))
  rw [pay3_apply, blk3_0_apply, blk3_1_apply, blk3_2_apply, blk3_3_emb, Cert.Gcn.scaleShift_apply]

/-- An index of the output array is in point t's block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v38).slice (win3_3.rect t)).set ↔ _
  rw [View.set_slice_whole, Rect.mem_set_unit]
  exact Iff.rfl

/-- Every entry of the output array is written back by some point: row r by point r / 5000. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by show (i 0).val / 5000 < 20; omega⟩, rfl⟩
  obtain ⟨-, -, -, -, -, -, e0, e1⟩ := blockIdx3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

/-- Region 3 (after the second neighbour sum): scaled and shifted by the bias row. -/
theorem final3 (c : Dev nD) :
    (dat3 (F := Ideal) V c).arrAt 3 cfg3.N = Cert.Gcn.scaleShift (V c main_v36) (V c main_v12) (V c main_v37) := by
  exact (dat3 (F := Ideal) V c).arrAt_eq_of_cover 3 (Cert.Gcn.scaleShift (V c main_v36) (V c main_v12) (V c main_v37))
    (fun t _ => flushed3_eq V c t) cover3

end Cert.KernelIdeal.RegionPost

end
-- ==== Proof.KValue.lean ====
/-
  The tiled program's two results as functions of its seven arguments.

  Between the launch memory and the return the buffer contents pass eleven boundaries: host operations compute the two
  columns of degree factors; the first projection region writes the scaled, projected features; host operations gather
  the projected rows along the edges' sources and add them up at the edges' targets; the next region scales the sums,
  adds the bias row and floors at zero — the first layer's output; the second layer repeats the three steps on that
  output, without the floor.  Each step reads buffers that nothing later overwrites, so walking the boundaries back from
  the last one expresses each result by the layer functions of `Cert.Gcn` around the two host-side functions below.

  * `degFactor idx`: the column whose entry d is the reciprocal square root of the larger of 1 and the number of edges
    whose endpoint in the list `idx` is d (a scatter-add of ones, a floor at one, a reciprocal square root).
  * `neighbourSum h src dst`: row d is the sum, over the edges whose target is d, of the row of `h` at the edge's
    source (a gather of rows, a negative source counted from the end, then a scatter-add from zero).
-/
import proofs.«130157_j10574209483123_1_alg».proof.Proof.Gen.KernelIdeal.Frame
import proofs.«130157_j10574209483123_1_alg».proof.Proof.Spec
import proofs.«130157_j10574209483123_1_alg».proof.Proof.RegionProj
import proofs.«130157_j10574209483123_1_alg».proof.Proof.RegionPost
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

/-- The column of degree factors of an endpoint list: entry d is the reciprocal square root of
    max 1 (the number of edges whose endpoint is d). -/
def degFactor (idx : IVec S1600000 32) : FVec Ideal S100000x1 .f32 :=
  broadcastInDim S100000x1 ![0] bcast_S100000_S100000x1_0
    (Host.rsqrt (maximumf (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))))

/-- The neighbour sum: row d is the sum over the edges with target d of the row of h at the edge's source. -/
def neighbourSum (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- One layer with the floor, as a function of the feature matrix, the edges' endpoint lists, the weights and the bias:
    the scaled, projected features are summed over in-neighbours, scaled, shifted by the bias row and floored at zero. -/
def layer1 (x : FVec Ideal S100000x128 .f32) (src dst : IVec S1600000 32) (W : FVec Ideal S128x64 .f32)
    (b : FVec Ideal S64 .f32) : FVec Ideal S100000x64 .f32 :=
  Cert.Gcn.scaleShiftRelu (neighbourSum (Cert.Gcn.proj x (degFactor src) W) src dst) (degFactor dst)
    (shapeCast S1x64 b shapeCasts_S64_S1x64)

/-- One layer without the floor. -/
def layer2 (h : FVec Ideal S100000x64 .f32) (src dst : IVec S1600000 32) (W : FVec Ideal S64x64 .f32)
    (b : FVec Ideal S64 .f32) : FVec Ideal S100000x64 .f32 :=
  Cert.Gcn.scaleShift (neighbourSum (Cert.Gcn.proj h (degFactor src) W) src dst) (degFactor dst)
    (shapeCast S1x64 b shapeCasts_S64_S1x64)

variable (m : (ℓ : Loc nD τ sig) → Buf (Elt Ideal) ℓ) (ρ : Dev nD → PrngReg) (c : Dev nD)

/-! ## The five host stretches before region 0, one at a time, over any starting contents -/

section Stretches
variable (U : Valuation τ sig (Elt Ideal))

/-- Stretch 0 counts, for each node, the edges whose source it is: a scatter-add of ones from zero. -/
theorem s0_main_v3 : StableHlo.after hostOps0 U (Proc.devRef .tc main_v3)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (U (Proc.devRef .tc main_arg1) : S1600000.Idx → BitVec 32))
        (broadcastInDim S1600000 ![] bcast_S_S1600000 (constant (F := Ideal) S_ .f32 0x3F800000#32)) := by
  after_results_simp <;> rfl
theorem s0_main_cst_1 : StableHlo.after hostOps0 U (Proc.devRef .tc main_cst_1) = constant (F := Ideal) S_ .f32 0x3F800000#32 := by
  after_results_simp <;> rfl
theorem s0_main_v0 : StableHlo.after hostOps0 U (Proc.devRef .tc main_v0)
    = broadcastInDim S1600000 ![] bcast_S_S1600000 (constant (F := Ideal) S_ .f32 0x3F800000#32) := by
  after_results_simp <;> rfl
/-- Stretch 1 floors the counts at one. -/
theorem s1_main_v4 : StableHlo.after hostOps0_1 U (Proc.devRef .tc main_v4)
    = (maximumf (F := Ideal) (s := S100000) (φ := .f32)
        (broadcastInDim S100000 ![] bcast_S_S100000 (id (U (Proc.devRef .tc main_cst_1) : S_.Idx → Ideal .f32)))
        (U (Proc.devRef .tc main_v3) : S100000.Idx → Ideal .f32)) := by
  after_results_simp <;> rfl
/-- Stretch 2 counts, for each node, the edges whose target it is. -/
theorem s2_main_v7 : StableHlo.after hostOps0_2 U (Proc.devRef .tc main_v7)
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (U (Proc.devRef .tc main_arg2) : S1600000.Idx → BitVec 32))
        (U (Proc.devRef .tc main_v0) : S1600000.Idx → Ideal .f32) := by
  after_results_simp <;> rfl
theorem s2_main_cst_3 : StableHlo.after hostOps0_2 U (Proc.devRef .tc main_cst_3) = constant (F := Ideal) S_ .f32 0x3F800000#32 := by
  after_results_simp <;> rfl
/-- Stretch 3 floors those counts at one. -/
theorem s3_main_v8 : StableHlo.after hostOps0_3 U (Proc.devRef .tc main_v8)
    = (maximumf (F := Ideal) (s := S100000) (φ := .f32)
        (broadcastInDim S100000 ![] bcast_S_S100000 (id (U (Proc.devRef .tc main_cst_3) : S_.Idx → Ideal .f32)))
        (U (Proc.devRef .tc main_v7) : S100000.Idx → Ideal .f32)) := by
  after_results_simp <;> rfl
/-- Stretch 4 takes reciprocal square roots and lays each result out as a column. -/
theorem s4_main_v10 : StableHlo.after hostOps0_4 U (Proc.devRef .tc main_v10)
    = broadcastInDim S100000x1 ![0] bcast_S100000_S100000x1_0 (Host.rsqrt (F := Ideal) (s := S100000) (φ := .f32) (U (Proc.devRef .tc main_v4) : S100000.Idx → Ideal .f32)) := by
  after_results_simp <;> rfl
theorem s4_main_v12 : StableHlo.after hostOps0_4 U (Proc.devRef .tc main_v12)
    = broadcastInDim S100000x1 ![0] bcast_S100000_S100000x1_0 (Host.rsqrt (F := Ideal) (s := S100000) (φ := .f32) (U (Proc.devRef .tc main_v8) : S100000.Idx → Ideal .f32)) := by
  after_results_simp <;> rfl
theorem s0_keep_main_arg0 : StableHlo.after hostOps0 U (Proc.devRef .tc main_arg0) = U (Proc.devRef .tc main_arg0) := by
  after_results_simp
theorem s0_keep_main_arg1 : StableHlo.after hostOps0 U (Proc.devRef .tc main_arg1) = U (Proc.devRef .tc main_arg1) := by
  after_results_simp
theorem s0_keep_main_arg2 : StableHlo.after hostOps0 U (Proc.devRef .tc main_arg2) = U (Proc.devRef .tc main_arg2) := by
  after_results_simp
theorem s0_keep_main_arg3 : StableHlo.after hostOps0 U (Proc.devRef .tc main_arg3) = U (Proc.devRef .tc main_arg3) := by
  after_results_simp
theorem s0_keep_main_arg4 : StableHlo.after hostOps0 U (Proc.devRef .tc main_arg4) = U (Proc.devRef .tc main_arg4) := by
  after_results_simp
theorem s0_keep_main_arg5 : StableHlo.after hostOps0 U (Proc.devRef .tc main_arg5) = U (Proc.devRef .tc main_arg5) := by
  after_results_simp
theorem s0_keep_main_arg6 : StableHlo.after hostOps0 U (Proc.devRef .tc main_arg6) = U (Proc.devRef .tc main_arg6) := by
  after_results_simp
theorem s1_keep_main_arg0 : StableHlo.after hostOps0_1 U (Proc.devRef .tc main_arg0) = U (Proc.devRef .tc main_arg0) := by
  after_results_simp
theorem s1_keep_main_arg1 : StableHlo.after hostOps0_1 U (Proc.devRef .tc main_arg1) = U (Proc.devRef .tc main_arg1) := by
  after_results_simp
theorem s1_keep_main_arg2 : StableHlo.after hostOps0_1 U (Proc.devRef .tc main_arg2) = U (Proc.devRef .tc main_arg2) := by
  after_results_simp
theorem s1_keep_main_arg3 : StableHlo.after hostOps0_1 U (Proc.devRef .tc main_arg3) = U (Proc.devRef .tc main_arg3) := by
  after_results_simp
theorem s1_keep_main_arg4 : StableHlo.after hostOps0_1 U (Proc.devRef .tc main_arg4) = U (Proc.devRef .tc main_arg4) := by
  after_results_simp
theorem s1_keep_main_arg5 : StableHlo.after hostOps0_1 U (Proc.devRef .tc main_arg5) = U (Proc.devRef .tc main_arg5) := by
  after_results_simp
theorem s1_keep_main_arg6 : StableHlo.after hostOps0_1 U (Proc.devRef .tc main_arg6) = U (Proc.devRef .tc main_arg6) := by
  after_results_simp
theorem s1_keep_main_v0 : StableHlo.after hostOps0_1 U (Proc.devRef .tc main_v0) = U (Proc.devRef .tc main_v0) := by
  after_results_simp
theorem s2_keep_main_arg0 : StableHlo.after hostOps0_2 U (Proc.devRef .tc main_arg0) = U (Proc.devRef .tc main_arg0) := by
  after_results_simp
theorem s2_keep_main_arg1 : StableHlo.after hostOps0_2 U (Proc.devRef .tc main_arg1) = U (Proc.devRef .tc main_arg1) := by
  after_results_simp
theorem s2_keep_main_arg2 : StableHlo.after hostOps0_2 U (Proc.devRef .tc main_arg2) = U (Proc.devRef .tc main_arg2) := by
  after_results_simp
theorem s2_keep_main_arg3 : StableHlo.after hostOps0_2 U (Proc.devRef .tc main_arg3) = U (Proc.devRef .tc main_arg3) := by
  after_results_simp
theorem s2_keep_main_arg4 : StableHlo.after hostOps0_2 U (Proc.devRef .tc main_arg4) = U (Proc.devRef .tc main_arg4) := by
  after_results_simp
theorem s2_keep_main_arg5 : StableHlo.after hostOps0_2 U (Proc.devRef .tc main_arg5) = U (Proc.devRef .tc main_arg5) := by
  after_results_simp
theorem s2_keep_main_arg6 : StableHlo.after hostOps0_2 U (Proc.devRef .tc main_arg6) = U (Proc.devRef .tc main_arg6) := by
  after_results_simp
theorem s2_keep_main_v4 : StableHlo.after hostOps0_2 U (Proc.devRef .tc main_v4) = U (Proc.devRef .tc main_v4) := by
  after_results_simp
theorem s3_keep_main_arg0 : StableHlo.after hostOps0_3 U (Proc.devRef .tc main_arg0) = U (Proc.devRef .tc main_arg0) := by
  after_results_simp
theorem s3_keep_main_arg1 : StableHlo.after hostOps0_3 U (Proc.devRef .tc main_arg1) = U (Proc.devRef .tc main_arg1) := by
  after_results_simp
theorem s3_keep_main_arg2 : StableHlo.after hostOps0_3 U (Proc.devRef .tc main_arg2) = U (Proc.devRef .tc main_arg2) := by
  after_results_simp
theorem s3_keep_main_arg3 : StableHlo.after hostOps0_3 U (Proc.devRef .tc main_arg3) = U (Proc.devRef .tc main_arg3) := by
  after_results_simp
theorem s3_keep_main_arg4 : StableHlo.after hostOps0_3 U (Proc.devRef .tc main_arg4) = U (Proc.devRef .tc main_arg4) := by
  after_results_simp
theorem s3_keep_main_arg5 : StableHlo.after hostOps0_3 U (Proc.devRef .tc main_arg5) = U (Proc.devRef .tc main_arg5) := by
  after_results_simp
theorem s3_keep_main_arg6 : StableHlo.after hostOps0_3 U (Proc.devRef .tc main_arg6) = U (Proc.devRef .tc main_arg6) := by
  after_results_simp
theorem s3_keep_main_v4 : StableHlo.after hostOps0_3 U (Proc.devRef .tc main_v4) = U (Proc.devRef .tc main_v4) := by
  after_results_simp
theorem s4_keep_main_arg0 : StableHlo.after hostOps0_4 U (Proc.devRef .tc main_arg0) = U (Proc.devRef .tc main_arg0) := by
  after_results_simp
theorem s4_keep_main_arg1 : StableHlo.after hostOps0_4 U (Proc.devRef .tc main_arg1) = U (Proc.devRef .tc main_arg1) := by
  after_results_simp
theorem s4_keep_main_arg2 : StableHlo.after hostOps0_4 U (Proc.devRef .tc main_arg2) = U (Proc.devRef .tc main_arg2) := by
  after_results_simp
theorem s4_keep_main_arg3 : StableHlo.after hostOps0_4 U (Proc.devRef .tc main_arg3) = U (Proc.devRef .tc main_arg3) := by
  after_results_simp
theorem s4_keep_main_arg4 : StableHlo.after hostOps0_4 U (Proc.devRef .tc main_arg4) = U (Proc.devRef .tc main_arg4) := by
  after_results_simp
theorem s4_keep_main_arg5 : StableHlo.after hostOps0_4 U (Proc.devRef .tc main_arg5) = U (Proc.devRef .tc main_arg5) := by
  after_results_simp
theorem s4_keep_main_arg6 : StableHlo.after hostOps0_4 U (Proc.devRef .tc main_arg6) = U (Proc.devRef .tc main_arg6) := by
  after_results_simp

end Stretches

/-! ## Region 0's entry: the arguments as launched, the two columns of degree factors computed -/

theorem entry0_main_arg0 : W5 m ρ c (Proc.devRef .tc main_arg0) = (m ((c : Thread nD τ).loc main_arg0)) :=
  (s4_keep_main_arg0 (W4 m ρ c)).trans ((s3_keep_main_arg0 (W3 m ρ c)).trans ((s2_keep_main_arg0 (W2 m ρ c)).trans
    ((s1_keep_main_arg0 (W1 m ρ c)).trans (s0_keep_main_arg0 (W0 m ρ c)))))
theorem entry0_main_arg1 : W5 m ρ c (Proc.devRef .tc main_arg1) = (m ((c : Thread nD τ).loc main_arg1)) :=
  (s4_keep_main_arg1 (W4 m ρ c)).trans ((s3_keep_main_arg1 (W3 m ρ c)).trans ((s2_keep_main_arg1 (W2 m ρ c)).trans
    ((s1_keep_main_arg1 (W1 m ρ c)).trans (s0_keep_main_arg1 (W0 m ρ c)))))
theorem entry0_main_arg2 : W5 m ρ c (Proc.devRef .tc main_arg2) = (m ((c : Thread nD τ).loc main_arg2)) :=
  (s4_keep_main_arg2 (W4 m ρ c)).trans ((s3_keep_main_arg2 (W3 m ρ c)).trans ((s2_keep_main_arg2 (W2 m ρ c)).trans
    ((s1_keep_main_arg2 (W1 m ρ c)).trans (s0_keep_main_arg2 (W0 m ρ c)))))
theorem entry0_main_arg3 : W5 m ρ c (Proc.devRef .tc main_arg3) = (m ((c : Thread nD τ).loc main_arg3)) :=
  (s4_keep_main_arg3 (W4 m ρ c)).trans ((s3_keep_main_arg3 (W3 m ρ c)).trans ((s2_keep_main_arg3 (W2 m ρ c)).trans
    ((s1_keep_main_arg3 (W1 m ρ c)).trans (s0_keep_main_arg3 (W0 m ρ c)))))
theorem entry0_main_arg4 : W5 m ρ c (Proc.devRef .tc main_arg4) = (m ((c : Thread nD τ).loc main_arg4)) :=
  (s4_keep_main_arg4 (W4 m ρ c)).trans ((s3_keep_main_arg4 (W3 m ρ c)).trans ((s2_keep_main_arg4 (W2 m ρ c)).trans
    ((s1_keep_main_arg4 (W1 m ρ c)).trans (s0_keep_main_arg4 (W0 m ρ c)))))
theorem entry0_main_arg5 : W5 m ρ c (Proc.devRef .tc main_arg5) = (m ((c : Thread nD τ).loc main_arg5)) :=
  (s4_keep_main_arg5 (W4 m ρ c)).trans ((s3_keep_main_arg5 (W3 m ρ c)).trans ((s2_keep_main_arg5 (W2 m ρ c)).trans
    ((s1_keep_main_arg5 (W1 m ρ c)).trans (s0_keep_main_arg5 (W0 m ρ c)))))
theorem entry0_main_arg6 : W5 m ρ c (Proc.devRef .tc main_arg6) = (m ((c : Thread nD τ).loc main_arg6)) :=
  (s4_keep_main_arg6 (W4 m ρ c)).trans ((s3_keep_main_arg6 (W3 m ρ c)).trans ((s2_keep_main_arg6 (W2 m ρ c)).trans
    ((s1_keep_main_arg6 (W1 m ρ c)).trans (s0_keep_main_arg6 (W0 m ρ c)))))

/-- The floored out-degree counts. -/
theorem cnt_src : W2 m ρ c (Proc.devRef .tc main_v4)
    = (maximumf (F := Ideal) (s := S100000) (φ := .f32)
        (broadcastInDim S100000 ![] bcast_S_S100000 (id (constant (F := Ideal) S_ .f32 0x3F800000#32)))
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (m ((c : Thread nD τ).loc main_arg1)))
          (broadcastInDim S1600000 ![] bcast_S_S1600000 (constant (F := Ideal) S_ .f32 0x3F800000#32)))) := by
  refine (s1_main_v4 (W1 m ρ c)).trans ?_
  rw [show W1 m ρ c (Proc.devRef .tc main_cst_1) = _ from s0_main_cst_1 (W0 m ρ c),
    show W1 m ρ c (Proc.devRef .tc main_v3) = _ from s0_main_v3 (W0 m ρ c)]

theorem entry0_main_v10 : W5 m ρ c (Proc.devRef .tc main_v10) = degFactor (m ((c : Thread nD τ).loc main_arg1)) := by
  refine (s4_main_v10 (W4 m ρ c)).trans ?_
  rw [show W4 m ρ c (Proc.devRef .tc main_v4) = _ from (s3_keep_main_v4 (W3 m ρ c)).trans ((s2_keep_main_v4 (W2 m ρ c)).trans (cnt_src m ρ c))]
  rfl

/-- The floored in-degree counts. -/
theorem cnt_dst : W4 m ρ c (Proc.devRef .tc main_v8)
    = (maximumf (F := Ideal) (s := S100000) (φ := .f32)
        (broadcastInDim S100000 ![] bcast_S_S100000 (id (constant (F := Ideal) S_ .f32 0x3F800000#32)))
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (m ((c : Thread nD τ).loc main_arg2)))
          (broadcastInDim S1600000 ![] bcast_S_S1600000 (constant (F := Ideal) S_ .f32 0x3F800000#32)))) := by
  refine (s3_main_v8 (W3 m ρ c)).trans ?_
  rw [show W3 m ρ c (Proc.devRef .tc main_cst_3) = _ from s2_main_cst_3 (W2 m ρ c),
    show W3 m ρ c (Proc.devRef .tc main_v7) = _ from s2_main_v7 (W2 m ρ c),
    show W2 m ρ c (Proc.devRef .tc main_arg2) = _ from (s1_keep_main_arg2 (W1 m ρ c)).trans (s0_keep_main_arg2 (W0 m ρ c)),
    show W2 m ρ c (Proc.devRef .tc main_v0) = _ from (s1_keep_main_v0 (W1 m ρ c)).trans (s0_main_v0 (W0 m ρ c))]

theorem entry0_main_v12 : W5 m ρ c (Proc.devRef .tc main_v12) = degFactor (m ((c : Thread nD τ).loc main_arg2)) := by
  refine (s4_main_v12 (W4 m ρ c)).trans ?_
  rw [cnt_dst]
  rfl

/-! ## Region 0's exit: the projected features written, everything else as entered -/

/-- The first layer's scaled and projected features. -/
def proj1 : FVec Ideal S100000x64 .f32 := Cert.Gcn.proj (m ((c : Thread nD τ).loc main_arg0)) (degFactor (m ((c : Thread nD τ).loc main_arg1))) (m ((c : Thread nD τ).loc main_arg3))

theorem exit0_main_v13 : W6 m ρ c (Proc.devRef .tc main_v13) = proj1 m c := by
  refine (W6_arr m ρ c 3).trans ((Cert.KernelIdeal.RegionProj.final0 (V5 m ρ) c).trans ?_)
  show Cert.Gcn.proj (W5 m ρ c (Proc.devRef .tc main_arg0)) (W5 m ρ c (Proc.devRef .tc main_v10)) (W5 m ρ c (Proc.devRef .tc main_arg3)) = _
  rw [entry0_main_arg0, entry0_main_v10, entry0_main_arg3]
  rfl

theorem exit0_main_v10 : W6 m ρ c (Proc.devRef .tc main_v10) = degFactor (m ((c : Thread nD τ).loc main_arg1)) :=
  ((W6_arr m ρ c 1).trans (((dat0 (V5 m ρ) c).arrAt_in 1 rfl _).trans (A_eq0 (V5 m ρ) c 1))).trans (entry0_main_v10 m ρ c)
theorem exit0_main_v12 : W6 m ρ c (Proc.devRef .tc main_v12) = degFactor (m ((c : Thread nD τ).loc main_arg2)) :=
  (W6_of_ne m ρ c main_v12 (by decide)).trans (entry0_main_v12 m ρ c)
theorem exit0_main_arg1 : W6 m ρ c (Proc.devRef .tc main_arg1) = (m ((c : Thread nD τ).loc main_arg1)) :=
  (W6_of_ne m ρ c main_arg1 (by decide)).trans (entry0_main_arg1 m ρ c)
theorem exit0_main_arg2 : W6 m ρ c (Proc.devRef .tc main_arg2) = (m ((c : Thread nD τ).loc main_arg2)) :=
  (W6_of_ne m ρ c main_arg2 (by decide)).trans (entry0_main_arg2 m ρ c)
theorem exit0_main_arg4 : W6 m ρ c (Proc.devRef .tc main_arg4) = (m ((c : Thread nD τ).loc main_arg4)) :=
  (W6_of_ne m ρ c main_arg4 (by decide)).trans (entry0_main_arg4 m ρ c)
theorem exit0_main_arg5 : W6 m ρ c (Proc.devRef .tc main_arg5) = (m ((c : Thread nD τ).loc main_arg5)) :=
  (W6_of_ne m ρ c main_arg5 (by decide)).trans (entry0_main_arg5 m ρ c)
theorem exit0_main_arg6 : W6 m ρ c (Proc.devRef .tc main_arg6) = (m ((c : Thread nD τ).loc main_arg6)) :=
  (W6_of_ne m ρ c main_arg6 (by decide)).trans (entry0_main_arg6 m ρ c)

/-! ## Region 1's entry: the first neighbour sum and the bias row computed -/

/-- The first layer's neighbour sums. -/
def agg1 : FVec Ideal S100000x64 .f32 := neighbourSum (proj1 m c) (m ((c : Thread nD τ).loc main_arg1)) (m ((c : Thread nD τ).loc main_arg2))

theorem entry1_main_v23 : W7 m ρ c (Proc.devRef .tc main_v23) = agg1 m c := by
  have e : W7 m ρ c (Proc.devRef .tc main_v23)
      = neighbourSum (W6 m ρ c (Proc.devRef .tc main_v13)) (W6 m ρ c (Proc.devRef .tc main_arg1)) (W6 m ρ c (Proc.devRef .tc main_arg2)) := by
    show StableHlo.after hostOps1 (W6 m ρ c) (Proc.devRef .tc main_v23) = _
    after_results_simp <;> rfl
  rw [e, exit0_main_v13, exit0_main_arg1, exit0_main_arg2]
  rfl

theorem entry1_main_v24 : W7 m ρ c (Proc.devRef .tc main_v24)
    = shapeCast S1x64 ((m ((c : Thread nD τ).loc main_arg4)) : S64.Idx → Ideal .f32) shapeCasts_S64_S1x64 := by
  have e : W7 m ρ c (Proc.devRef .tc main_v24)
      = shapeCast S1x64 (W6 m ρ c (Proc.devRef .tc main_arg4) : S64.Idx → Ideal .f32) shapeCasts_S64_S1x64 := by
    show StableHlo.after hostOps1 (W6 m ρ c) (Proc.devRef .tc main_v24) = _
    after_results_simp <;> rfl
  rw [e, exit0_main_arg4]
theorem entry1_main_v12 : W7 m ρ c (Proc.devRef .tc main_v12) = degFactor (m ((c : Thread nD τ).loc main_arg2)) := by
  have e : W7 m ρ c (Proc.devRef .tc main_v12) = W6 m ρ c (Proc.devRef .tc main_v12) := by
    show StableHlo.after hostOps1 (W6 m ρ c) (Proc.devRef .tc main_v12) = _
    after_results_simp
  exact e.trans (exit0_main_v12 m ρ c)
theorem entry1_main_v10 : W7 m ρ c (Proc.devRef .tc main_v10) = degFactor (m ((c : Thread nD τ).loc main_arg1)) := by
  have e : W7 m ρ c (Proc.devRef .tc main_v10) = W6 m ρ c (Proc.devRef .tc main_v10) := by
    show StableHlo.after hostOps1 (W6 m ρ c) (Proc.devRef .tc main_v10) = _
    after_results_simp
  exact e.trans (exit0_main_v10 m ρ c)
theorem entry1_main_arg5 : W7 m ρ c (Proc.devRef .tc main_arg5) = (m ((c : Thread nD τ).loc main_arg5)) := by
  have e : W7 m ρ c (Proc.devRef .tc main_arg5) = W6 m ρ c (Proc.devRef .tc main_arg5) := by
    show StableHlo.after hostOps1 (W6 m ρ c) (Proc.devRef .tc main_arg5) = _
    after_results_simp
  exact e.trans (exit0_main_arg5 m ρ c)
theorem entry1_main_arg1 : W7 m ρ c (Proc.devRef .tc main_arg1) = (m ((c : Thread nD τ).loc main_arg1)) := by
  have e : W7 m ρ c (Proc.devRef .tc main_arg1) = W6 m ρ c (Proc.devRef .tc main_arg1) := by
    show StableHlo.after hostOps1 (W6 m ρ c) (Proc.devRef .tc main_arg1) = _
    after_results_simp
  exact e.trans (exit0_main_arg1 m ρ c)
theorem entry1_main_arg2 : W7 m ρ c (Proc.devRef .tc main_arg2) = (m ((c : Thread nD τ).loc main_arg2)) := by
  have e : W7 m ρ c (Proc.devRef .tc main_arg2) = W6 m ρ c (Proc.devRef .tc main_arg2) := by
    show StableHlo.after hostOps1 (W6 m ρ c) (Proc.devRef .tc main_arg2) = _
    after_results_simp
  exact e.trans (exit0_main_arg2 m ρ c)
theorem entry1_main_arg6 : W7 m ρ c (Proc.devRef .tc main_arg6) = (m ((c : Thread nD τ).loc main_arg6)) := by
  have e : W7 m ρ c (Proc.devRef .tc main_arg6) = W6 m ρ c (Proc.devRef .tc main_arg6) := by
    show StableHlo.after hostOps1 (W6 m ρ c) (Proc.devRef .tc main_arg6) = _
    after_results_simp
  exact e.trans (exit0_main_arg6 m ρ c)

/-! ## Region 1's exit: the first layer's output written -/

/-- The first layer's output. -/
def out1 : FVec Ideal S100000x64 .f32 :=
  Cert.Gcn.scaleShiftRelu (agg1 m c) (degFactor (m ((c : Thread nD τ).loc main_arg2)))
    (shapeCast S1x64 ((m ((c : Thread nD τ).loc main_arg4)) : S64.Idx → Ideal .f32) shapeCasts_S64_S1x64)

theorem exit1_main_v25 : W8 m ρ c (Proc.devRef .tc main_v25) = out1 m c := by
  refine (W8_arr m ρ c 3).trans ((Cert.KernelIdeal.RegionPost.final1 (V7 m ρ) c).trans ?_)
  show Cert.Gcn.scaleShiftRelu (W7 m ρ c (Proc.devRef .tc main_v23)) (W7 m ρ c (Proc.devRef .tc main_v12)) (W7 m ρ c (Proc.devRef .tc main_v24)) = _
  rw [entry1_main_v23, entry1_main_v12, entry1_main_v24]
  rfl

theorem exit1_main_v12 : W8 m ρ c (Proc.devRef .tc main_v12) = degFactor (m ((c : Thread nD τ).loc main_arg2)) :=
  ((W8_arr m ρ c 1).trans (((dat1 (V7 m ρ) c).arrAt_in 1 rfl _).trans (A_eq1 (V7 m ρ) c 1))).trans (entry1_main_v12 m ρ c)
theorem exit1_main_v10 : W8 m ρ c (Proc.devRef .tc main_v10) = degFactor (m ((c : Thread nD τ).loc main_arg1)) :=
  (W8_of_ne m ρ c main_v10 (by decide)).trans (entry1_main_v10 m ρ c)
theorem exit1_main_arg5 : W8 m ρ c (Proc.devRef .tc main_arg5) = (m ((c : Thread nD τ).loc main_arg5)) :=
  (W8_of_ne m ρ c main_arg5 (by decide)).trans (entry1_main_arg5 m ρ c)
theorem exit1_main_arg1 : W8 m ρ c (Proc.devRef .tc main_arg1) = (m ((c : Thread nD τ).loc main_arg1)) :=
  (W8_of_ne m ρ c main_arg1 (by decide)).trans (entry1_main_arg1 m ρ c)
theorem exit1_main_arg2 : W8 m ρ c (Proc.devRef .tc main_arg2) = (m ((c : Thread nD τ).loc main_arg2)) :=
  (W8_of_ne m ρ c main_arg2 (by decide)).trans (entry1_main_arg2 m ρ c)
theorem exit1_main_arg6 : W8 m ρ c (Proc.devRef .tc main_arg6) = (m ((c : Thread nD τ).loc main_arg6)) :=
  (W8_of_ne m ρ c main_arg6 (by decide)).trans (entry1_main_arg6 m ρ c)

/-! ## Region 2's exit: the second projection written; the first layer's output, which it read, kept -/

/-- The second layer's scaled and projected features. -/
def proj2 : FVec Ideal S100000x64 .f32 := Cert.Gcn.proj (out1 m c) (degFactor (m ((c : Thread nD τ).loc main_arg1))) (m ((c : Thread nD τ).loc main_arg5))

theorem exit2_main_v26 : W9 m ρ c (Proc.devRef .tc main_v26) = proj2 m c := by
  refine (W9_arr m ρ c 3).trans ((Cert.KernelIdeal.RegionProj.final2 (V8 m ρ) c).trans ?_)
  show Cert.Gcn.proj (W8 m ρ c (Proc.devRef .tc main_v25)) (W8 m ρ c (Proc.devRef .tc main_v10)) (W8 m ρ c (Proc.devRef .tc main_arg5)) = _
  rw [exit1_main_v25, exit1_main_v10, exit1_main_arg5]
  rfl

theorem exit2_main_v25 : W9 m ρ c (Proc.devRef .tc main_v25) = out1 m c :=
  ((W9_arr m ρ c 0).trans (((dat2 (V8 m ρ) c).arrAt_in 0 rfl _).trans (A_eq2 (V8 m ρ) c 0))).trans (exit1_main_v25 m ρ c)
theorem exit2_main_v12 : W9 m ρ c (Proc.devRef .tc main_v12) = degFactor (m ((c : Thread nD τ).loc main_arg2)) :=
  (W9_of_ne m ρ c main_v12 (by decide)).trans (exit1_main_v12 m ρ c)
theorem exit2_main_arg1 : W9 m ρ c (Proc.devRef .tc main_arg1) = (m ((c : Thread nD τ).loc main_arg1)) :=
  (W9_of_ne m ρ c main_arg1 (by decide)).trans (exit1_main_arg1 m ρ c)
theorem exit2_main_arg2 : W9 m ρ c (Proc.devRef .tc main_arg2) = (m ((c : Thread nD τ).loc main_arg2)) :=
  (W9_of_ne m ρ c main_arg2 (by decide)).trans (exit1_main_arg2 m ρ c)
theorem exit2_main_arg6 : W9 m ρ c (Proc.devRef .tc main_arg6) = (m ((c : Thread nD τ).loc main_arg6)) :=
  (W9_of_ne m ρ c main_arg6 (by decide)).trans (exit1_main_arg6 m ρ c)

/-! ## Region 3's entry: the second neighbour sum and the bias row computed -/

/-- The second layer's neighbour sums. -/
def agg2 : FVec Ideal S100000x64 .f32 := neighbourSum (proj2 m c) (m ((c : Thread nD τ).loc main_arg1)) (m ((c : Thread nD τ).loc main_arg2))

theorem entry3_main_v36 : W10 m ρ c (Proc.devRef .tc main_v36) = agg2 m c := by
  have e : W10 m ρ c (Proc.devRef .tc main_v36)
      = neighbourSum (W9 m ρ c (Proc.devRef .tc main_v26)) (W9 m ρ c (Proc.devRef .tc main_arg1)) (W9 m ρ c (Proc.devRef .tc main_arg2)) := by
    show StableHlo.after hostOps3 (W9 m ρ c) (Proc.devRef .tc main_v36) = _
    after_results_simp <;> rfl
  rw [e, exit2_main_v26, exit2_main_arg1, exit2_main_arg2]
  rfl

theorem entry3_main_v37 : W10 m ρ c (Proc.devRef .tc main_v37)
    = shapeCast S1x64 ((m ((c : Thread nD τ).loc main_arg6)) : S64.Idx → Ideal .f32) shapeCasts_S64_S1x64 := by
  have e : W10 m ρ c (Proc.devRef .tc main_v37)
      = shapeCast S1x64 (W9 m ρ c (Proc.devRef .tc main_arg6) : S64.Idx → Ideal .f32) shapeCasts_S64_S1x64 := by
    show StableHlo.after hostOps3 (W9 m ρ c) (Proc.devRef .tc main_v37) = _
    after_results_simp <;> rfl
  rw [e, exit2_main_arg6]

theorem entry3_main_v12 : W10 m ρ c (Proc.devRef .tc main_v12) = degFactor (m ((c : Thread nD τ).loc main_arg2)) := by
  have e : W10 m ρ c (Proc.devRef .tc main_v12) = W9 m ρ c (Proc.devRef .tc main_v12) := by
    show StableHlo.after hostOps3 (W9 m ρ c) (Proc.devRef .tc main_v12) = _
    after_results_simp
  exact e.trans (exit2_main_v12 m ρ c)

theorem entry3_main_v25 : W10 m ρ c (Proc.devRef .tc main_v25) = out1 m c := by
  have e : W10 m ρ c (Proc.devRef .tc main_v25) = W9 m ρ c (Proc.devRef .tc main_v25) := by
    show StableHlo.after hostOps3 (W9 m ρ c) (Proc.devRef .tc main_v25) = _
    after_results_simp
  exact e.trans (exit2_main_v25 m ρ c)

/-! ## The return: the two results at the last boundary -/

/-- The second layer's output. -/
def out2 : FVec Ideal S100000x64 .f32 :=
  Cert.Gcn.scaleShift (agg2 m c) (degFactor (m ((c : Thread nD τ).loc main_arg2)))
    (shapeCast S1x64 ((m ((c : Thread nD τ).loc main_arg6)) : S64.Idx → Ideal .f32) shapeCasts_S64_S1x64)

/-- The second layer's output is what the last boundary holds at the first returned buffer. -/
theorem last_main_v38 : W11 m ρ c (Proc.devRef .tc main_v38) = out2 m c := by
  refine (W11_arr m ρ c 3).trans ((Cert.KernelIdeal.RegionPost.final3 (V10 m ρ) c).trans ?_)
  show Cert.Gcn.scaleShift (W10 m ρ c (Proc.devRef .tc main_v36)) (W10 m ρ c (Proc.devRef .tc main_v12)) (W10 m ρ c (Proc.devRef .tc main_v37)) = _
  rw [entry3_main_v36, entry3_main_v12, entry3_main_v37]
  rfl

/-- The first layer's output is what the last boundary holds at the second returned buffer. -/
theorem last_main_v25 : W11 m ρ c (Proc.devRef .tc main_v25) = out1 m c :=
  (W11_of_ne m ρ c main_v25 (by decide)).trans (entry3_main_v25 m ρ c)

/-- The first result is the first layer of the arguments. -/
theorem out1_eq_layer1 : out1 m c = layer1 (m ((c : Thread nD τ).loc main_arg0)) (m ((c : Thread nD τ).loc main_arg1)) (m ((c : Thread nD τ).loc main_arg2)) (m ((c : Thread nD τ).loc main_arg3)) (m ((c : Thread nD τ).loc main_arg4)) := rfl

/-- The second result is the second layer of the first result. -/
theorem out2_eq_layer2 : out2 m c = layer2 (out1 m c) (m ((c : Thread nD τ).loc main_arg1)) (m ((c : Thread nD τ).loc main_arg2)) (m ((c : Thread nD τ).loc main_arg5)) (m ((c : Thread nD τ).loc main_arg6)) := rfl

end Cert.KernelIdeal.KValue

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.HostLayer.lean ====
/-
  The reference's spelling of a layer's two dense steps, as whole arrays, for any sizes.

  The reference scales the feature rows by a column of factors broadcast along the rows and contracts the result with
  the weight matrix: entry (p, q) of that product is the sum over k of (x (p, k) * n (p, 0)) * W (k, q), which is
  `Cert.Gcn.proj`.  After the neighbour sum it multiplies by a column of factors broadcast along the rows and adds a bias
  row broadcast along the columns: entry (p, q) is a (p, q) * n (p, 0) + b (0, q), which is `Cert.Gcn.scaleShift`.  Its
  floor is the entrywise maximum with a broadcast scalar whose pattern is all zeros: `Cert.Gcn.scaleShiftRelu`.
-/
import Idealize.ShloMosaic.PureOps.Ideal.Laws
import Idealize.ShloMosaic.Lib.ValueIdx
import Idealize.ShloMosaic.Lib.Pipeline.Value
import proofs.«130157_j10574209483123_1_alg».proof.Proof.Spec
import proofs.«130157_j10574209483123_1_alg».proof.Proof.LibPlainDot
import proofs.«130157_j10574209483123_1_alg».proof.Proof.LibBroadcastInDim2

noncomputable section

open scoped BigOperators

namespace Cert.Gcn

open Idealize.ShloMosaic Idealize.ShloMosaic.ValueIdx

/-- The host's product of the row-scaled features with the weights is the projection. -/
theorem hostProj_eq {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (hb : (⟨2, ![A, 1]⟩ : Shape).BroadcastsInDim ⟨2, ![A, K]⟩ (![0, 1] : Fin 2 → Fin 2))
    (x : FVec Ideal ⟨2, ![A, K]⟩ .f32) (n : FVec Ideal ⟨2, ![A, 1]⟩ .f32) (W : FVec Ideal ⟨2, ![K, B]⟩ .f32) :
    Host.dotGeneral d none (mulf x (broadcastInDim (⟨2, ![A, K]⟩ : Shape) (![0, 1] : Fin 2 → Fin 2) hb n)) W
      = proj x n W := by
  funext i
  obtain ⟨p, q, rfl⟩ : ∃ (p : Fin A) (q : Fin B), i = ix2 p q := ⟨i 0, i 1, eq_ix2 i⟩
  rw [proj_apply]
  refine (Cert.Bridge.dotGeneral_plain d hlc hrc hln hrn hlb hrb none _ _ W p q).trans ?_
  refine Finset.sum_congr rfl fun k _ => ?_
  rw [mulf_apply, BroadcastInDim2.colToMat_apply]

/-- The host's scaling by a broadcast column and shift by a broadcast row. -/
theorem hostScaleShift_eq {A B : Nat}
    (hn : (⟨2, ![A, 1]⟩ : Shape).BroadcastsInDim ⟨2, ![A, B]⟩ (![0, 1] : Fin 2 → Fin 2))
    (hb : (⟨2, ![1, B]⟩ : Shape).BroadcastsInDim ⟨2, ![A, B]⟩ (![0, 1] : Fin 2 → Fin 2))
    (a : FVec Ideal ⟨2, ![A, B]⟩ .f32) (n : FVec Ideal ⟨2, ![A, 1]⟩ .f32) (b : FVec Ideal ⟨2, ![1, B]⟩ .f32) :
    addf (mulf a (broadcastInDim (⟨2, ![A, B]⟩ : Shape) (![0, 1] : Fin 2 → Fin 2) hn n))
        (broadcastInDim (⟨2, ![A, B]⟩ : Shape) (![0, 1] : Fin 2 → Fin 2) hb b)
      = scaleShift a n b := by
  funext i
  obtain ⟨p, q, rfl⟩ : ∃ (p : Fin A) (q : Fin B), i = ix2 p q := ⟨i 0, i 1, eq_ix2 i⟩
  rw [scaleShift_apply, addf_apply, mulf_apply, BroadcastInDim2.colToMat_apply, BroadcastInDim2.rowToMat_apply]

/-- The host's floor: the entrywise maximum with the broadcast scalar of the all-zero pattern. -/
theorem hostFloor_eq {A B : Nat}
    (hz : (⟨0, ![]⟩ : Shape).BroadcastsInDim ⟨2, ![A, B]⟩ (![] : Fin 0 → Fin 2))
    (a : FVec Ideal ⟨2, ![A, B]⟩ .f32) (n : FVec Ideal ⟨2, ![A, 1]⟩ .f32) (b : FVec Ideal ⟨2, ![1, B]⟩ .f32) :
    maximumf (scaleShift a n b)
        (broadcastInDim (⟨2, ![A, B]⟩ : Shape) (![] : Fin 0 → Fin 2) hz (constant (F := Ideal) ⟨0, ![]⟩ .f32 0x00000000#32))
      = scaleShiftRelu a n b := by
  funext i
  rfl

end Cert.Gcn

end
-- ==== Proof.LibReshapeVec.lean ====
/-
  A vector reshaped to a one-column or a one-row matrix is the vector broadcast in dimension 0, respectively 1, for
  any length: `reshape [a] → [a, 1]` against `broadcast_in_dim dims = [0]`, and `reshape [b] → [1, b]` against
  `broadcast_in_dim dims = [1]`.  Entry (p, 0) of either column is entry p of the vector, entry (0, q) of either row
  is entry q: the reshape by the row-major position (p·1 + 0 = p, 0·b + q = q), the broadcast by its index map.
-/
import Idealize.ShloMosaic.Lib.ValueIdx
import Idealize.ShloMosaic.Lib.Pipeline.Value
import proofs.«130157_j10574209483123_1_alg».proof.Proof.LibBroadcastInDim2

namespace Idealize.ShloMosaic.ReshapeVec

open Idealize.ShloMosaic Idealize.ShloMosaic.ValueIdx

variable {α : Type}

/-- A vector reshaped to a column is the vector broadcast along dimension 0 of the column. -/
theorem reshapeCol_eq_broadcastInDim {a : Nat} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast (⟨2, ![a, 1]⟩ : Shape) v h = broadcastInDim (⟨2, ![a, 1]⟩ : Shape) (![0] : Fin 1 → Fin 2) h' v := by
  funext i
  obtain ⟨p, z, rfl⟩ : ∃ (p : Fin a) (z : Fin 1), i = ix2 p z := ⟨i 0, i 1, eq_ix2 i⟩
  rw [BroadcastInDim2.vecToCol_apply]
  obtain rfl : z = 0 := Fin.ext (by have := z.isLt; omega)
  exact shapeCast_apply v h (ix2 p (0 : Fin 1)) (ix1 p) (by
    rw [Shape.rowMajor_val_two, Shape.rowMajor_val_one]; show p.val = p.val * 1 + 0; omega)

/-- A vector reshaped to a row is the vector broadcast along dimension 1 of the row. -/
theorem reshapeRow_eq_broadcastInDim {b : Nat} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast (⟨2, ![1, b]⟩ : Shape) v h = broadcastInDim (⟨2, ![1, b]⟩ : Shape) (![1] : Fin 1 → Fin 2) h' v := by
  funext i
  obtain ⟨z, q, rfl⟩ : ∃ (z : Fin 1) (q : Fin b), i = ix2 z q := ⟨i 0, i 1, eq_ix2 i⟩
  rw [BroadcastInDim2.vecToRow_apply]
  obtain rfl : z = 0 := Fin.ext (by have := z.isLt; omega)
  exact shapeCast_apply v h (ix2 (0 : Fin 1) q) (ix1 q) (by
    rw [Shape.rowMajor_val_two, Shape.rowMajor_val_one]; show q.val = 0 * b + q.val; omega)

end Idealize.ShloMosaic.ReshapeVec
-- ==== Proof.LayerBridge.lean ====
/-
  The reference, stage by stage, is the same two layer functions.

  The reference computes the degree factors, the gather of rows along the edges' sources and the scatter-add at the
  edges' targets by the very operations the tiled program runs on the host: those stages are the functions
  `degFactor` and `neighbourSum` as they stand.  Its dense stages are the host spellings of `Cert.Gcn.proj`,
  `Cert.Gcn.scaleShift` and `Cert.Gcn.scaleShiftRelu`; and it lays the bias out as a one-row matrix by a broadcast
  where the tiled program reshapes, two spellings of the same row.  So the reference's first result is `layer1` of the
  arguments and its second result `layer2` of the first.
-/
import proofs.«130157_j10574209483123_1_alg».proof.Proof.Gen.ReferenceIdeal.Read
import proofs.«130157_j10574209483123_1_alg».proof.Proof.KValue
import proofs.«130157_j10574209483123_1_alg».proof.Proof.HostLayer
import proofs.«130157_j10574209483123_1_alg».proof.Proof.LibReshapeVec

set_option maxRecDepth 16384

noncomputable section

namespace Cert.LayerBridge

open Idealize.ShloMosaic
open Cert.ReferenceIdeal Cert.ReferenceIdeal.Gen Cert.ReferenceIdeal.Read

variable (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))

/-! ## The host-side stages -/

/-- The out-degree factors. -/
theorem factors_src : val_main_v10 (F := Ideal) x1 = Cert.KernelIdeal.KValue.degFactor x1 := rfl

/-- The in-degree factors. -/
theorem factors_dst : val_main_v12 (F := Ideal) x2 = Cert.KernelIdeal.KValue.degFactor x2 := rfl

/-- The first layer's neighbour sum, of whatever was projected. -/
theorem sum1 : val_main_v25 (F := Ideal) x0 x1 x2 x3 = Cert.KernelIdeal.KValue.neighbourSum (val_main_v15 (F := Ideal) x0 x1 x3) x1 x2 := rfl

/-- The second layer's neighbour sum. -/
theorem sum2 : val_main_v44 (F := Ideal) x0 x1 x2 x3 x4 x5
    = Cert.KernelIdeal.KValue.neighbourSum (val_main_v34 (F := Ideal) x0 x1 x2 x3 x4 x5) x1 x2 := rfl

/-- The first bias as a one-row matrix: a broadcast along the new axis is the reshape. -/
theorem bias1 : val_main_v28 (F := Ideal) x4
    = shapeCast Cert.KernelIdeal.S1x64 x4 Cert.KernelIdeal.Gen.shapeCasts_S64_S1x64 := by
  unfold val_main_v28
  exact (ReshapeVec.reshapeRow_eq_broadcastInDim x4 _ _).symm

/-- The second bias as a one-row matrix. -/
theorem bias2 : val_main_v47 (F := Ideal) x6
    = shapeCast Cert.KernelIdeal.S1x64 x6 Cert.KernelIdeal.Gen.shapeCasts_S64_S1x64 := by
  unfold val_main_v47
  exact (ReshapeVec.reshapeRow_eq_broadcastInDim x6 _ _).symm

/-! ## The dense stages -/

/-- The first projection. -/
theorem dense1 : val_main_v15 (F := Ideal) x0 x1 x3 = Cert.Gcn.proj x0 (val_main_v10 (F := Ideal) x1) x3 := by
  unfold val_main_v15 val_main_v14 val_main_v13
  exact Cert.Gcn.hostProj_eq dot_S100000x128_S128x64_S100000x64_1_0_0_1_n_n rfl rfl rfl rfl rfl rfl _ x0 _ x3

/-- The first layer's output from its neighbour sum. -/
theorem post1 : val_main_v31 (F := Ideal) x0 x1 x2 x3 x4
    = Cert.Gcn.scaleShiftRelu (val_main_v25 (F := Ideal) x0 x1 x2 x3) (val_main_v12 (F := Ideal) x2) (val_main_v28 (F := Ideal) x4) := by
  unfold val_main_v31 val_main_v30 val_main_v27 val_main_v29 val_main_v26 val_main_call2_v0 val_main_call2_cst
  rw [Cert.Gcn.hostScaleShift_eq]
  exact Cert.Gcn.hostFloor_eq _ _ _ _

/-- The second projection, of the first layer's output. -/
theorem dense2 : val_main_v34 (F := Ideal) x0 x1 x2 x3 x4 x5
    = Cert.Gcn.proj (val_main_v31 (F := Ideal) x0 x1 x2 x3 x4) (val_main_v10 (F := Ideal) x1) x5 := by
  unfold val_main_v34 val_main_v33 val_main_v32
  exact Cert.Gcn.hostProj_eq dot_S100000x64_S64x64_S100000x64_1_0_0_1_n_n rfl rfl rfl rfl rfl rfl _ _ _ x5

/-- The second layer's output from its neighbour sum. -/
theorem post2 : val_main_v49 (F := Ideal) x0 x1 x2 x3 x4 x5 x6
    = Cert.Gcn.scaleShift (val_main_v44 (F := Ideal) x0 x1 x2 x3 x4 x5) (val_main_v12 (F := Ideal) x2) (val_main_v47 (F := Ideal) x6) := by
  unfold val_main_v49 val_main_v46 val_main_v48 val_main_v45
  exact Cert.Gcn.hostScaleShift_eq _ _ _ _ _

/-! ## The two results -/

/-- The reference's first result is the first layer of the arguments. -/
theorem layer1_eq : val_main_v31 (F := Ideal) x0 x1 x2 x3 x4 = Cert.KernelIdeal.KValue.layer1 x0 x1 x2 x3 x4 := by
  rw [post1, sum1, dense1, factors_src, factors_dst, bias1]
  rfl

/-- The reference's second result is the second layer of its first result. -/
theorem layer2_eq : val_main_v49 (F := Ideal) x0 x1 x2 x3 x4 x5 x6
    = Cert.KernelIdeal.KValue.layer2 (val_main_v31 (F := Ideal) x0 x1 x2 x3 x4) x1 x2 x5 x6 := by
  rw [post2, sum2, dense2, factors_src, factors_dst, bias2]
  rfl

end Cert.LayerBridge

end
-- ==== Proof.lean ====
/-
  A two-layer graph convolution, tiled, against its plain reference: both programs compute the same extended reals.

  Each layer scales every node's feature row by that node's out-degree factor, projects the rows by a weight matrix,
  sums the projected rows of each node's in-neighbours, scales each node's sum by its in-degree factor and adds a bias
  row; the first layer floors the result at zero.  The reference spells the dense steps as whole-array host operations.
  The tiled program runs each dense step as a region over twenty blocks of five thousand rows and leaves the degree
  counts, the gather along the edges' sources and the scatter-add at the edges' targets on the host, exactly as the
  reference has them.

  On the extended reals an entry of a dense step depends only on its own row of the operands, so the twenty row bands a
  region writes back are the bands of one whole-array function (`Cert.Gcn.proj`, `scaleShift`, `scaleShiftRelu`), and
  the reference's host spellings are those same functions: a matrix product is the same finite sum whether it is taken
  block by block or at once, and a change of float format is the identity.  No law that fails at the infinities is
  used, so the precondition is never opened.  Around the dense steps the two programs apply the same host operations to
  equal operands.  Hence both results agree, entry by entry.
-/
import proofs.«130157_j10574209483123_1_alg».proof.Defs
import proofs.«130157_j10574209483123_1_alg».proof.Proof.Gen.Kernel
import proofs.«130157_j10574209483123_1_alg».proof.Proof.Gen.Kernel.Frame
import proofs.«130157_j10574209483123_1_alg».proof.Proof.Gen.KernelIdeal
import proofs.«130157_j10574209483123_1_alg».proof.Proof.Gen.KernelIdeal.Frame
import proofs.«130157_j10574209483123_1_alg».proof.Proof.Gen.ReferenceIdeal
import proofs.«130157_j10574209483123_1_alg».proof.Proof.Gen.ReferenceIdeal.Run
import proofs.«130157_j10574209483123_1_alg».proof.Proof.Gen.ReferenceIdeal.Read
import proofs.«130157_j10574209483123_1_alg».proof.Proof.Gen.Pre_finite_inputs
import proofs.«130157_j10574209483123_1_alg».proof.Proof.KRun
import proofs.«130157_j10574209483123_1_alg».proof.Proof.KValue
import proofs.«130157_j10574209483123_1_alg».proof.Proof.LayerBridge
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference runs and leaves its arguments as launched: its run, the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to preserve. -/
theorem preserves : Cert.preserves_Kernel_KernelIdeal := trivial

/-- From memories agreeing on the seven arguments both programs end with the second layer's output and the first
    layer's output of those arguments: the tiled program by walking its boundaries back from the return, the reference
    because its stages are the same two layer functions. -/
theorem algebraic : Cert.algebraic_KernelIdeal_ReferenceIdeal := by
  intro m ρ m' ρ' _ hagree
  refine ⟨fun c => Cert.KernelIdeal.KValue.out2 m c, fun c => Cert.KernelIdeal.KValue.out1 m c, ?_, ?_⟩
  · exact (θ_run Cert.KernelIdeal.defs _ _).mono
      (fun _ h c => ⟨(h c).1.trans (Cert.KernelIdeal.KValue.last_main_v38 m ρ c),
        (h c).2.1.trans (Cert.KernelIdeal.KValue.last_main_v25 m ρ c), (h c).2.2⟩)
      (Cert.KernelIdeal.KRun.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6⟩ := hagree c
      show _ = Cert.KernelIdeal.KValue.out2 m c
      rw [Cert.ReferenceIdeal.Read.val_main_v49_eq m' c, e0, e1, e2, e3, e4, e5, e6, Cert.LayerBridge.layer2_eq,
        Cert.LayerBridge.layer1_eq, Cert.KernelIdeal.KValue.out2_eq_layer2, Cert.KernelIdeal.KValue.out1_eq_layer1]
    · obtain ⟨e0, e1, e2, e3, e4, e5, e6⟩ := hagree c
      show _ = Cert.KernelIdeal.KValue.out1 m c
      rw [Cert.ReferenceIdeal.Read.val_main_v31_eq, e0, e1, e2, e3, e4, Cert.LayerBridge.layer1_eq,
        Cert.KernelIdeal.KValue.out1_eq_layer1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
